-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S2048x2048 .f32) (main_arg2 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S_ : Shape := ⟨0, ![]⟩
abbrev S16384x2048 : Shape := ⟨2, ![16384, 2048]⟩
abbrev S512x2048 : Shape := ⟨2, ![512, 2048]⟩

abbrev nBuf : Space → Nat
  | .hbm => 23
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .i1⟩
  | .hbm, ⟨6, _⟩ => ⟨S_, .f32⟩
  | .hbm, ⟨7, _⟩ => ⟨S2048x2048, .f32⟩
  | .hbm, ⟨8, _⟩ => ⟨S2048x2048, .i1⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S16384x2048, .f32⟩
  | .hbm, ⟨21, _⟩ => ⟨S16384x2048, .f32⟩
  | .hbm, ⟨22, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2048x2048 : S_.BroadcastsInDim S2048x2048 (![] : Fin 0 → Fin S2048x2048.rank)
  bitsLt_bf16_f32 : FTy.bits .bf16 < FTy.bits .f32
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v9) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S4x4096x2048, .f32⟩
  | .hbm, ⟨5, _⟩ => ⟨S4x4096x2048, .i1⟩
  | .hbm, ⟨6, _⟩ => ⟨S_, .f32⟩
  | .hbm, ⟨7, _⟩ => ⟨S4x4096x2048, .f32⟩
  | .hbm, ⟨8, _⟩ => ⟨S4x4096x2048, .i1⟩
  | .hbm, ⟨9, _⟩ => ⟨S_, .f32⟩
  | .hbm, ⟨10, _⟩ => ⟨S_, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S2048x2048, .f32⟩
  | .hbm, ⟨20, _⟩ => ⟨S2048x2048, .i1⟩
  | .hbm, ⟨21, _⟩ => ⟨S_, .f32⟩
  | .hbm, ⟨22, _⟩ => ⟨S2048x2048, .f32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_cst_7 : Ref sig .tc := ⟨.hbm, 25, rfl⟩
abbrev main_call2_v0 : Ref sig .tc := ⟨.hbm, 26, rfl⟩
abbrev main_call2_v1 : Ref sig .tc := ⟨.hbm, 27, rfl⟩
abbrev main_v11 : Ref sig .tc := ⟨.hbm, 28, rfl⟩
abbrev main_cst_8 : Ref sig .tc := ⟨.hbm, 29, rfl⟩
abbrev main_call3_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]

class Facts₀ : Prop where
  bcast_S_S4x4096x2048 : S_.BroadcastsInDim S4x4096x2048 (![] : Fin 0 → Fin S4x4096x2048.rank)
  bcast_S_S2048x2048 : S_.BroadcastsInDim S2048x2048 (![] : Fin 0 → Fin S2048x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Spec.lean ====
/-
  The function both programs compute, on the extended reals.

  A three-level quantizer sends a value `v` to `up` when `v > hi`, to `dn` when `v < lo`, and to `z` otherwise.
  The activations are quantized with thresholds ±0.33 to the levels ±0.5 and 0; the weights with thresholds ±0.2
  to the levels ±0.6 and 0, and the variation is then added to the quantized weight.  The result at
  (b, s, o) is the contraction over the 2048 input features d of the quantized activation at (b, s, d) times
  the perturbed quantized weight at (o, d).  Every literal is kept as its binary32 word: the same word
  stands on both sides and is never evaluated.
-/
import Idealize.ShloMosaic.PureOps.Ideal
import Idealize.ShloMosaic.Lib.ValueIdx

noncomputable section

namespace Cert.TernaryLinear

open Idealize.ShloMosaic Idealize.ShloMosaic.ValueIdx

/-- The activations' and the result's index set, batch × sequence × feature. -/
abbrev SX : Shape := ⟨3, ![4, 4096, 2048]⟩
/-- The weights' index set, output feature × input feature. -/
abbrev SW : Shape := ⟨2, ![2048, 2048]⟩
/-- The activations with batch and sequence merged into one row axis. -/
abbrev SR : Shape := ⟨2, ![16384, 2048]⟩

/-- The three-level quantizer: `up` above `hi`, `dn` below `lo`, `z` between (the comparisons are the
    ordered ones of the extended reals, left unevaluated). -/
def tern (hi lo up dn z v : EReal) : EReal :=
  Scalar.select (FloatOps.cmpf (F := Ideal) (φ := .f32) .ogt v hi) up
    (Scalar.select (FloatOps.cmpf (F := Ideal) (φ := .f32) .olt v lo) dn z)

/-- The quantized activation: thresholds ±0.33, levels ±0.5 and 0. -/
def actQ (v : EReal) : EReal :=
  tern (Ideal.ofBits .f32 0x3EA8F5C3#32) (Ideal.ofBits .f32 0xBEA8F5C3#32)
    (Ideal.ofBits .f32 0x3F000000#32) (Ideal.ofBits .f32 0xBF000000#32) (Ideal.ofBits .f32 0x00000000#32) v

/-- The perturbed quantized weight: thresholds ±0.2, levels ±0.6 and 0, plus the variation `r`. -/
def wgtQ (a r : EReal) : EReal :=
  tern (Ideal.ofBits .f32 0x3E4CCCCD#32) (Ideal.ofBits .f32 0xBE4CCCCD#32)
    (Ideal.ofBits .f32 0x3F19999A#32) (Ideal.ofBits .f32 0xBF19999A#32) (Ideal.ofBits .f32 0x00000000#32) a + r

/-- The perturbed quantized weight matrix, entry by entry. -/
def wgt (w r : SW.Idx → EReal) : SW.Idx → EReal := fun j => wgtQ (w j) (r j)

/-- The product of a row-major activation matrix `X` (rows × input features), quantized entry by entry, with
    the transpose of a weight matrix `W` (output features × input features): entry (p, o) is the sum over the
    input features d of `actQ (X (p, d)) * W (o, d)`. -/
def rowsOut (X : SR.Idx → EReal) (W : SW.Idx → EReal) : SR.Idx → EReal :=
  fun j => ∑ k : Fin 2048, actQ (X (ix2 (j 0) k)) * W (ix2 (j 1) k)

/-- The result: entry (b, s, o) is the sum over the input features d of the quantized activation at (b, s, d)
    times the perturbed quantized weight at (o, d). -/
def out (x : SX.Idx → EReal) (w r : SW.Idx → EReal) : SX.Idx → EReal :=
  fun i => ∑ k : Fin 2048, actQ (x (ix3 (i 0) (i 1) k)) * wgtQ (w (ix2 (i 2) k)) (r (ix2 (i 2) k))

end Cert.TernaryLinear

end
-- ==== Proof.RefValue.lean ====
/-
  The reference, read index by index.

  The host program quantizes the activations and the weights entry by entry, adds the variation to the quantized
  weights, and contracts the last axis of the activations with the last axis of the weights.  Read at an index
  (b, s, o), its result is the sum over d of the quantized activation at (b, s, d) times the perturbed quantized
  weight at (o, d): the specification's function.
-/
import proofs.«158337_j81260781240394_2_alg».proof.Proof.Gen.ReferenceIdeal.Read
import proofs.«158337_j81260781240394_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.TernaryLinear

/-- The quantized activations at an index: the quantizer applied to the activation there. -/
theorem act_apply (x0 : (⟨S4x4096x2048, .f32⟩ : BufTy).Contents (Elt Ideal)) (j : S4x4096x2048.Idx) :
    val_main_v6 (F := Ideal) x0 j = actQ (x0 j) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- The perturbed quantized weights at an index: the quantizer applied to the weight there, plus the variation there. -/
theorem wgt_apply (x1 x2 : (⟨S2048x2048, .f32⟩ : BufTy).Contents (Elt Ideal)) (j : S2048x2048.Idx) :
    val_main_v14 (F := Ideal) x1 x2 j = wgtQ (x1 j) (x2 j) := by
  rw [val_main_v14_apply, val_main_v13_apply, val_main_v12_apply, val_main_v8_apply, val_main_v7_apply, val_main_cst_4_apply,
    val_main_call3_v0_apply, val_main_cst_8_apply, val_main_v11_apply, val_main_v10_apply, val_main_v9_apply,
    val_main_cst_5_apply, val_main_call2_v0_apply, val_main_cst_6_apply, val_main_call2_v1_apply, val_main_cst_7_apply]
  rfl

/-- The reference's result is the specification's function of the three argument arrays. -/
theorem result_eq (x0 : (⟨S4x4096x2048, .f32⟩ : BufTy).Contents (Elt Ideal))
    (x1 x2 : (⟨S2048x2048, .f32⟩ : BufTy).Contents (Elt Ideal)) :
    val_main_v15 (F := Ideal) x0 x1 x2 = out x0 x1 x2 := by
  funext i
  rw [val_main_v15_apply]
  unfold out
  refine Finset.sum_congr rfl fun k _ => ?_
  rw [act_apply, wgt_apply]
  have el : lidx_main_v15 i k = ix3 (i 0) (i 1) k :=
    funext fun a => Fin.ext (by match a with | ⟨0, _⟩ => rfl | ⟨1, _⟩ => rfl | ⟨2, _⟩ => rfl)
  have er : ridx_main_v15 i k = ix2 (i 2) k :=
    funext fun a => Fin.ext (by match a with | ⟨0, _⟩ => rfl | ⟨1, _⟩ => rfl)
  rw [el, er]
  rfl

end Cert.ReferenceIdeal.RefValue

end
-- ==== Proof.KernelBody.lean ====
/-
  The kernel body's stored value, read index by index.

  At a grid point the body loads a 512 × 2048 block of activation rows and the whole 2048 × 2048 weight matrix,
  quantizes the activations entry by entry, and multiplies the quantized block by the transpose of the weights:
  the entry at (p, o) of what it stores is the sum over the input features d of the quantized activation at
  (p, d) times the weight at (o, d).  On the extended reals the change of format before the product is the
  identity and the product into a zero accumulator is the plain sum.
-/
import proofs.«158337_j81260781240394_2_alg».proof.Proof.Gen.KernelIdeal.Skeleton
import proofs.«158337_j81260781240394_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx Cert.TernaryLinear

/-- The left operand is read at the output's row … -/
theorem lhs_row (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl
/-- … and the contracted feature; -/
theorem lhs_feat (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- the right operand at the output's column, which is its ROW (the weights are stored output feature first) … -/
theorem rhs_row (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl
/-- … and the contracted feature. -/
theorem rhs_feat (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The stored value at (p, o): the sum over the input features of the quantized activation at (p, d) times the
    weight at (o, d). -/
theorem pay_apply (x0 : Vec Ideal S512x2048 .f32) (x1 : Vec Ideal S2048x2048 .bf16) (p : Fin 512) (o : Fin 2048) :
    k0_pay1 (F := Ideal) x0 x1 (ix2 p o) = ∑ k : Fin 2048, actQ (x0 (ix2 p k)) * x1 (ix2 o k) := by
  unfold k0_pay1
  refine (Ideal.matmul_constant_zero_apply dot_S512x2048_S2048x2048_S512x2048_1_1_0_0_n_n none _ _ (ix2 p o)).trans ?_
  rw [← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p o)
      ((contrEquiv1 dot_S512x2048_S2048x2048_S512x2048_1_1_0_0_n_n 2048 rfl rfl).symm k) = ix2 p k :=
    funext fun a => Fin.ext (by
      match a with
      | ⟨0, _⟩ => exact lhs_row _ _
      | ⟨1, _⟩ => exact (lhs_feat _ _).trans hk)
  have er : dot_S512x2048_S2048x2048_S512x2048_1_1_0_0_n_n.rhsIdx (ix2 p o)
      ((contrEquiv1 dot_S512x2048_S2048x2048_S512x2048_1_1_0_0_n_n 2048 rfl rfl).symm k) = ix2 o k :=
    funext fun a => Fin.ext (by
      match a with
      | ⟨0, _⟩ => exact rhs_row _ _
      | ⟨1, _⟩ => exact (rhs_feat _ _).trans hk)
  rw [el, er]
  refine congrArg₂ (· * ·) ?_ ?_
  · rw [shapeCast_self x0 shapeCasts_S512x2048_S512x2048]
    rfl
  · exact congrFun (shapeCast_self x1 _) (ix2 o k)

end Cert.KernelIdeal.Body

end
-- ==== Proof.KernelInputs.lean ====
/-
  What the region finds in its two input arrays.

  Before the region the host quantizes the weights entry by entry, adds the variation, and changes the format (the
  identity on the extended reals): the region's second array is the perturbed quantized weight matrix.  It also merges
  the batch and sequence axes of the activations: the region's first array holds, at row b·4096 + s and column d, the
  activation at (b, s, d).
-/
import proofs.«158337_j81260781240394_2_alg».proof.Proof.Gen.KernelIdeal.Frame
import proofs.«158337_j81260781240394_2_alg».proof.Proof.Spec
import Idealize.ShloMosaic.Lib.Pipeline.Value
import Idealize.ShloMosaic.Lib.ValueIdx
import Idealize.ShloMosaic.Lib.StableHlo.Run

noncomputable section

namespace Cert.KernelIdeal.Inputs

open Cert.KernelIdeal Cert.KernelIdeal.Gen
open Idealize.ShloMosaic Idealize.ShloMosaic.TcCoe Idealize.SL.Sem Idealize.ShloMosaic.StableHlo
open Idealize.ShloMosaic.ValueIdx Cert.TernaryLinear

variable (m : (ℓ : Loc nD τ sig) → Buf (Elt Ideal) ℓ)

/-- The region's first array is the activations with batch and sequence merged into one row axis. -/
theorem rows_eq (c : Dev nD) :
    (V m c main_v9 : S16384x2048.Idx → EReal)
      = shapeCast S16384x2048 (m ((c : Thread nD τ).loc main_arg0)) shapeCasts_S4x4096x2048_S16384x2048 := by
  dsimp only [Gen.V, Gen.V0]
  simp only [hostOps0, hostOps0_1, hostOps0_2, hostOps0_3, hostOps0_4, List.flatten_cons, List.flatten_nil, List.append_nil,
    List.cons_append, List.nil_append]
  after_results
  rfl

/-- Row b·4096 + s, column d of the region's first array is the activation at (b, s, d). -/
theorem rows_apply (c : Dev nD) (p : Fin 16384) (k : Fin 2048) (b : Fin 4) (s : Fin 4096) (h : p.val = b.val * 4096 + s.val) :
    (V m c main_v9 : S16384x2048.Idx → EReal) (ix2 p k) = m ((c : Thread nD τ).loc main_arg0) (ix3 b s k) := by
  rw [rows_eq]
  refine shapeCast_apply _ _ (ix2 p k) (ix3 b s k) ?_
  rw [Shape.rowMajor_val_three, Shape.rowMajor_val_two]
  show (b.val * 4096 + s.val) * 2048 + k.val = p.val * 2048 + k.val
  rw [h]

/-- The region's second array is the perturbed quantized weight matrix. -/
theorem weights_eq (c : Dev nD) :
    (V m c main_v8 : S2048x2048.Idx → EReal)
      = wgt (m ((c : Thread nD τ).loc main_arg1)) (m ((c : Thread nD τ).loc main_arg2)) := by
  dsimp only [Gen.V, Gen.V0]
  simp only [hostOps0, hostOps0_1, hostOps0_2, hostOps0_3, hostOps0_4, List.flatten_cons, List.flatten_nil, List.append_nil,
    List.cons_append, List.nil_append]
  after_results
  rfl

end Cert.KernelIdeal.Inputs

end
-- ==== Proof.KernelValue.lean ====
/-
  The kernel's result, from blocks to the whole array and through the final reshape.

  The grid has 32 points.  Point t reads rows 512·t … 512·t + 511 of the activation rows and the whole weight matrix,
  and writes back rows 512·t … 512·t + 511 of the product.  Every row of the product lies in exactly one point's
  block, so after the run the region's output array is the whole product `rowsOut`.  The host then splits the row
  axis back into batch and sequence: entry (b, s, o) of the result is entry (b·4096 + s, o) of the product, which is
  the specification's sum.
-/
import proofs.«158337_j81260781240394_2_alg».proof.Proof.Gen.KernelIdeal.Frame
import proofs.«158337_j81260781240394_2_alg».proof.Proof.Spec
import proofs.«158337_j81260781240394_2_alg».proof.Proof.KernelBody
import proofs.«158337_j81260781240394_2_alg».proof.Proof.KernelInputs
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.TernaryLinear

variable (m : (ℓ : Loc nD τ sig) → Buf (Elt Ideal) ℓ) (ρ : Dev nD → PrngReg)

theorem off_zero : (![0, 0] : Fin 2 → Nat) = fun _ => 0 := funext fun a => by fin_cases a <;> rfl

/-- The block indices over the grid: the activation block moves with the output block along the rows and both sit at
    column block 0; the weight block is always the whole matrix; the output's row block index is at most 31. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every row block is some point's. -/
theorem block_onto : ∀ q : Fin 32, ∃ t : Fin cfg0.N, win0_2.index t = ![q.val, 0] :=
  (by decide +kernel : ∀ q : Fin 32, ∃ t : Fin grid0.N, win0_2.index t = ![q.val, 0])

/-- What point t writes back is block t of the whole product of the arrays the region finds. -/
theorem flushed_eq (c : Dev nD) (t : Fin cfg0.N) :
    (dats m 0 c).flushed 2 t
      = ((cfg0.win 2).blk t).view.read (Elt Ideal) (rowsOut (V m c main_v9) (V m c main_v8)) := by
  show (cfg0.win 2).cut (grid0.coords t) ((dats m 0 c).after 2 t) = _
  rw [after0_2]
  unfold out0_2
  rw [View.canon_unit_zero off_zero]
  simp only [View.ld_unit_zero (S := S512x2048) off_zero, View.ld_unit_zero (S := S2048x2048) off_zero]
  obtain ⟨e0, e1, e2, e3, e4, e5⟩ := block_indices t
  funext j
  obtain ⟨p, o, rfl⟩ : ∃ (p : Fin 512) (o : Fin 2048), j = ix2 p o := ⟨j 0, j 1, eq_ix2 j⟩
  refine (Body.pay_apply (iblk m c 0 t) (iblk m c 1 t) p o).trans ?_
  show _ = rowsOut (V m c main_v9) (V m c main_v8) (((cfg0.win 2).blk t).view.emb (ix2 p o))
  unfold rowsOut
  refine Finset.sum_congr rfl fun k _ => ?_
  have h0 : ((cfg0.win 0).blk t).view.emb (ix2 p k) = ix2 ((((cfg0.win 2).blk t).view.emb (ix2 p o)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 2048 + 1 * k.val = k.val; omega
  have h1 : ((cfg0.win 1).blk t).view.emb (ix2 o k) = ix2 ((((cfg0.win 2).blk t).view.emb (ix2 p o)) 1) k := by
    funext a; apply Fin.ext
    match a with
    | ⟨0, _⟩ => show win0_1.index t (0 : Fin 2) * 2048 + 1 * o.val = win0_2.index t (1 : Fin 2) * 2048 + 1 * o.val; omega
    | ⟨1, _⟩ => show win0_1.index t (1 : Fin 2) * 2048 + 1 * k.val = k.val; omega
  show actQ (V m c main_v9 (((cfg0.win 0).blk t).view.emb (ix2 p k))) * V m c main_v8 (((cfg0.win 1).blk t).view.emb (ix2 o k)) = _
  rw [h0, h1]
  rfl

/-- An index of the output array is in point t's block iff each coordinate is in the block's range on its axis. -/
theorem mem_block (t : Fin cfg0.N) (i : S16384x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v10).slice (win0_2.rect t)).set ↔ _
  rw [View.set_slice_whole, Rect.mem_set_unit]
  exact Iff.rfl

/-- Every index of the output array is in some point's block: row r is in the block of point r / 512. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The region's output array after the run is the whole product of the arrays the region finds. -/
theorem product (c : Dev nD) :
    (dats m 0 c).arrAt 2 cfg0.N = rowsOut (V m c main_v9) (V m c main_v8) :=
  (dats m 0 c).arrAt_eq_of_cover 2 _ (fun t _ => flushed_eq m c t) covered

end Cert.KernelIdeal.Whole

end
-- ==== Proof.KernelRun.lean ====
/-
  The kernel's run, with its result named.

  After the region the host splits the product's row axis back into batch and sequence.  Entry (b, s, o) of the
  result is entry (b·4096 + s, o) of the product of the arrays the region found; row b·4096 + s of the first of those
  is the activation row (b, s), and the second is the perturbed quantized weight matrix.  So the result is the
  specification's function of the three argument arrays, and the argument arrays end as they were launched.
-/
import proofs.«158337_j81260781240394_2_alg».proof.Proof.KernelValue

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.TernaryLinear

variable (m : (ℓ : Loc nD τ sig) → Buf (Elt Ideal) ℓ) (ρ : Dev nD → PrngReg)

/-- Entry (b·4096 + s, o) of the product of the arrays the region found is the specification's sum at (b, s, o). -/
theorem product_apply (c : Dev nD) (b : Fin 4) (s : Fin 4096) (o : Fin 2048) (p : Fin 16384) (h : p.val = b.val * 4096 + s.val) :
    rowsOut (V m c main_v9) (V m c main_v8) (ix2 p o)
      = out (m ((c : Thread nD τ).loc main_arg0)) (m ((c : Thread nD τ).loc main_arg1)) (m ((c : Thread nD τ).loc main_arg2)) (ix3 b s o) := by
  unfold rowsOut out
  refine Finset.sum_congr rfl fun k _ => ?_
  show actQ ((V m c main_v9 : S16384x2048.Idx → EReal) (ix2 p k)) * (V m c main_v8 : S2048x2048.Idx → EReal) (ix2 o k)
    = actQ (m ((c : Thread nD τ).loc main_arg0) (ix3 b s k))
      * wgtQ (m ((c : Thread nD τ).loc main_arg1) (ix2 o k)) (m ((c : Thread nD τ).loc main_arg2) (ix2 o k))
  rw [Inputs.rows_apply m c p k b s h, Inputs.weights_eq m c]
  rfl

/-- What the lines after the region leave in the result buffer: the specification's function of the arguments. -/
theorem result_eq (c : Dev nD) :
    (Pipeline.afterTail₀ cfgs (dats m) 0 (V0 m) [hostOps1] c main_v11 : S4x4096x2048.Idx → EReal)
      = out (m ((c : Thread nD τ).loc main_arg0)) (m ((c : Thread nD τ).loc main_arg1)) (m ((c : Thread nD τ).loc main_arg2)) := by
  unfold Pipeline.afterTail₀
  show StableHlo.after hostOps1 _ (Proc.devRef .tc main_v11) = _
  after_results
  have hA : (Pipeline.withArrays (cfgs 0).spec c (V0 m c) (fun w => (dats m 0 c).arrAt w (cfgs 0).N)
      (Proc.devRef .tc main_v10) : S16384x2048.Idx → EReal) = rowsOut (V m c main_v9) (V m c main_v8) :=
    (Pipeline.withArrays_arr spec0 launch0.win.arr_inj c _ _ 2).trans (product m c)
  funext i
  obtain ⟨b, s, o, rfl⟩ : ∃ (b : Fin 4) (s : Fin 4096) (o : Fin 2048), i = ix3 b s o := ⟨i 0, i 1, i 2, eq_ix3 i⟩
  have hb : b.val < 4 := b.isLt
  have hs : s.val < 4096 := s.isLt
  show shapeCast S4x4096x2048 (Pipeline.withArrays (cfgs 0).spec c (V0 m c) (fun w => (dats m 0 c).arrAt w (cfgs 0).N)
      (Proc.devRef .tc main_v10) : S16384x2048.Idx → EReal) shapeCasts_S16384x2048_S4x4096x2048 (ix3 b s o) = _
  rw [hA]
  refine (shapeCast_apply _ _ (ix3 b s o) (ix2 (⟨b.val * 4096 + s.val, by omega⟩ : Fin 16384) o) ?_).trans ?_
  · rw [Shape.rowMajor_val_three, Shape.rowMajor_val_two]
    rfl
  exact product_apply m c b s o (⟨b.val * 4096 + s.val, by omega⟩ : Fin 16384) rfl

/-- Every weakly fair execution of the idealized kernel program terminates with the result buffer at the specification's
    function of the argument arrays, and the argument arrays unchanged. -/
theorem run : θ_run defs (onTc (τ := τ) (main (F := Ideal))) ⟨m, fun _ => 0, ρ⟩ fun r => ∀ c : Dev nD,
      r.2.mem ((c.tc : Thread nD τ).loc main_v11)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v11 (Pipeline.mem_restRefs_of main_v11 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Whole

end
-- ==== Proof.lean ====
/-
  A dense linear layer on three-level quantized operands: the kernel against its reference, on the extended reals.

  Both programs quantize the activations x (thresholds ±0.33, levels ±0.5 and 0) and the weights w (thresholds ±0.2,
  levels ±0.6 and 0) entry by entry, add the variation r to the quantized weights, and contract the input-feature
  axis: the result at (b, s, o) is  Σ_d q(x[b,s,d]) · (q'(w[o,d]) + r[o,d]).  The kernel merges batch and sequence into
  16384 rows, computes the product 512 rows at a time on a grid of 32 points against the whole weight matrix, and
  splits the rows again; the reference contracts the three-axis array directly.  The two sums have the same terms in
  the same order of the index d, every literal is the same binary32 word on both sides, and a change of float format
  is the identity on the extended reals, so the equality needs no law of arithmetic and never uses that the inputs
  are finite.

  The three frames are the generated ones (the reference's is its generated run with the result dropped); the ideal
  pass rewrote nothing, so `preserves` is trivial.
-/
import proofs.«158337_j81260781240394_2_alg».proof.Defs
import proofs.«158337_j81260781240394_2_alg».proof.Proof.Gen.Kernel
import proofs.«158337_j81260781240394_2_alg».proof.Proof.Gen.Kernel.Frame
import proofs.«158337_j81260781240394_2_alg».proof.Proof.Gen.KernelIdeal
import proofs.«158337_j81260781240394_2_alg».proof.Proof.Gen.KernelIdeal.Frame
import proofs.«158337_j81260781240394_2_alg».proof.Proof.Gen.ReferenceIdeal
import proofs.«158337_j81260781240394_2_alg».proof.Proof.Gen.ReferenceIdeal.Run
import proofs.«158337_j81260781240394_2_alg».proof.Proof.Gen.ReferenceIdeal.Read
import proofs.«158337_j81260781240394_2_alg».proof.Proof.Gen.Pre_finite_inputs
import proofs.«158337_j81260781240394_2_alg».proof.Proof.Spec
import proofs.«158337_j81260781240394_2_alg».proof.Proof.RefValue
import proofs.«158337_j81260781240394_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result buffer at the specification's function of the argument arrays: the kernel by its
    run read block by block, the reference by its run read index by index, from memories that agree on the arguments. -/
theorem algebraic : Cert.algebraic_KernelIdeal_ReferenceIdeal := by
  intro m ρ m' ρ' _ hagree
  refine ⟨fun c => Cert.TernaryLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
